-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144 : Shape := ⟨1, ![262144]⟩
abbrev S8x256 : Shape := ⟨2, ![8, 256]⟩
abbrev S_ : Shape := ⟨0, ![]⟩

class Facts : Prop where
  bcast_S_S8x256 : S_.BroadcastsInDim S8x256 (![] : Fin 0 → Fin S8x256.rank)
  reducesTo_S8x256_S_d0_1 : S8x256.ReducesTo [0, 1] S_
  h_S_ : 0 < S_.numel

variable [Facts]

def fn {F : FTy → Type} [FloatOps F] (main_arg0 : IVec S262144 32) (main_arg1 : FVec F S8x256 .f32) : IVec S_ 1 :=
  let main_v0 : FVec F S8x256 .f32 := Host.absf main_arg1
  let main_cst : FVec F S_ .f32 := constant S_ .f32 0x7F800000#32
  let main_v1 : FVec F S8x256 .f32 := broadcastInDim S8x256 ![] bcast_S_S8x256 main_cst
  let main_v2 : IVec S8x256 1 := cmpf .olt main_v0 main_v1
  let main_c : IVec S_ 1 := constantI S_ 1 1#1
  let main_v3 : IVec S_ 1 := (fun x v => Host.reduce IntOp.andi x v reducesTo_S8x256_S_d0_1 h_S_) main_v2 main_c
  main_v3
-- ==== Kernel.lean ====
abbrev S262144 : Shape := ⟨1, ![262144]⟩
abbrev S8x256 : Shape := ⟨2, ![8, 256]⟩
abbrev S262144x256 : Shape := ⟨2, ![262144, 256]⟩
abbrev S16384x256 : Shape := ⟨2, ![16384, 256]⟩
abbrev S1x8x256 : Shape := ⟨3, ![1, 8, 256]⟩
abbrev S256x8x256 : Shape := ⟨3, ![256, 8, 256]⟩
abbrev S2048x256 : Shape := ⟨2, ![2048, 256]⟩

abbrev nBuf : Space → Nat
  | .hbm => 3
  | .vmem => 3
  | .smem => 0
  | _ => 0

abbrev bufTy : (tb : Table) → Fin (tcTables nBuf tb) → BufTy
  | .hbm, ⟨0, _⟩ => ⟨S262144, .i32⟩
  | .hbm, ⟨1, _⟩ => ⟨S8x256, .f32⟩
  | .hbm, ⟨2, _⟩ => ⟨S262144x256, .f32⟩
  | .local _ .vmem, ⟨0, _⟩ => ⟨S8x256, .f32⟩
  | .local _ .vmem, ⟨1, _⟩ => ⟨S16384x256, .f32⟩
  | .local _ .vmem, ⟨2, _⟩ => ⟨S16384x256, .f32⟩
  | _, _ => ⟨S262144, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c2048_i32 : BitVec 32 := 2048#32
  let v5 : BitVec 32 := Scalar.muli c0_i32 c2048_i32
  v5
def k0_off1 (c0_i32 : BitVec 32) : Fin 2 → Nat :=
  let c2048_i32 : BitVec 32 := 2048#32
  let v5 : BitVec 32 := Scalar.muli c0_i32 c2048_i32
  let v6 : BitVec 32 := v5
  let v7 : Index := Scalar.indexCast v6
  let c0_1 : Index := 0#32
  ![v7.toNat, 0]
def k0_mult2 : BitVec 32 :=
  let c1_i32 : BitVec 32 := 1#32
  let c2048_i32_2 : BitVec 32 := 2048#32
  let v9 : BitVec 32 := Scalar.muli c1_i32 c2048_i32_2
  v9
def k0_mult3 : BitVec 32 :=
  let c2_i32 : BitVec 32 := 2#32
  let c2048_i32_4 : BitVec 32 := 2048#32
  let v13 : BitVec 32 := Scalar.muli c2_i32 c2048_i32_4
  v13
def k0_mult4 : BitVec 32 :=
  let c3_i32 : BitVec 32 := 3#32
  let c2048_i32_6 : BitVec 32 := 2048#32
  let v17 : BitVec 32 := Scalar.muli c3_i32 c2048_i32_6
  v17
def k0_mult5 : BitVec 32 :=
  let c4_i32 : BitVec 32 := 4#32
  let c2048_i32_8 : BitVec 32 := 2048#32
  let v21 : BitVec 32 := Scalar.muli c4_i32 c2048_i32_8
  v21
def k0_mult6 : BitVec 32 :=
  let c5_i32 : BitVec 32 := 5#32
  let c2048_i32_10 : BitVec 32 := 2048#32
  let v25 : BitVec 32 := Scalar.muli c5_i32 c2048_i32_10
  v25
def k0_mult7 : BitVec 32 :=
  let c6_i32 : BitVec 32 := 6#32
  let c2048_i32_12 : BitVec 32 := 2048#32
  let v29 : BitVec 32 := Scalar.muli c6_i32 c2048_i32_12
  v29
def k0_mult8 : BitVec 32 :=
  let c7_i32 : BitVec 32 := 7#32
  let c2048_i32_14 : BitVec 32 := 2048#32
  let v33 : BitVec 32 := Scalar.muli c7_i32 c2048_i32_14
  v33
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16384x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S8x256_S8x256_0_0 : ∀ a, (![0, 0] : Fin 2 → Nat) a + S8x256.size a ≤ S8x256.size a
  h_S8x256 : 0 < S8x256.numel
  shapeCasts_S8x256_S1x8x256 : S8x256.ShapeCasts S1x8x256
  shapeCasts_S1x8x256_S1x8x256 : S1x8x256.ShapeCasts S1x8x256
  broadcasts_S1x8x256_S256x8x256 : S1x8x256.Broadcasts S256x8x256
  shapeCasts_S256x8x256_S2048x256 : S256x8x256.ShapeCasts S2048x256
  h_S2048x256 : 0 < S2048x256.numel
  hrank0 : 0 < grid0.rank
  k0_mult1_dvd : 2048 ∣ k0_mult1.toNat
  k0_off1_inb : ∀ (r : Fin 8), ∀ a, (k0_off1 (BitVec.ofNat 32 r.val)) a + S2048x256.size a ≤ S16384x256.size a
  k0_mult2_dvd : 2048 ∣ k0_mult2.toNat
  k0_mult3_dvd : 2048 ∣ k0_mult3.toNat
  k0_mult4_dvd : 2048 ∣ k0_mult4.toNat
  k0_mult5_dvd : 2048 ∣ k0_mult5.toNat
  k0_mult6_dvd : 2048 ∣ k0_mult6.toNat
  k0_mult7_dvd : 2048 ∣ k0_mult7.toNat
  k0_mult8_dvd : 2048 ∣ k0_mult8.toNat
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x256.size a ≤ S8x256.size a
  hwx0_0 : ∀ i : grid0.Coords, EltTy.bits .f32 = 32 ∨ (Rect.block (s := S8x256) S8x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x256.size a ≤ S262144x256.size a
  hwx0_1 : ∀ i : grid0.Coords, EltTy.bits .f32 = 32 ∨ (Rect.block (s := S262144x256) S16384x256.size (cc0_transform_1 i) (hinb0_1 i)).WholeWords (EltTy.packing .f32)

variable [Facts₀]

abbrev win0_0 : Pipeline.Window sig grid0 :=
  Pipeline.Window.ofSpec (Memref.whole main_arg1) S8x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16384x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S262144 : Shape := ⟨1, ![262144]⟩
abbrev S8x256 : Shape := ⟨2, ![8, 256]⟩
abbrev S_ : Shape := ⟨0, ![]⟩
abbrev S262144x1 : Shape := ⟨2, ![262144, 1]⟩
abbrev S262144x256 : Shape := ⟨2, ![262144, 256]⟩

abbrev nBuf : Space → Nat
  | .hbm => 34
  | .vmem => 0
  | .smem => 0
  | _ => 0

abbrev bufTy : (tb : Table) → Fin (tcTables nBuf tb) → BufTy
  | .hbm, ⟨0, _⟩ => ⟨S262144, .i32⟩
  | .hbm, ⟨1, _⟩ => ⟨S8x256, .f32⟩
  | .hbm, ⟨2, _⟩ => ⟨S262144, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S_, .i32⟩
  | .hbm, ⟨8, _⟩ => ⟨S_, .i32⟩
  | .hbm, ⟨9, _⟩ => ⟨S262144, .i32⟩
  | .hbm, ⟨10, _⟩ => ⟨S262144, .i32⟩
  | .hbm, ⟨11, _⟩ => ⟨S_, .i32⟩
  | .hbm, ⟨12, _⟩ => ⟨S262144, .i32⟩
  | .hbm, ⟨13, _⟩ => ⟨S262144, .i1⟩
  | .hbm, ⟨14, _⟩ => ⟨S_, .i32⟩
  | .hbm, ⟨15, _⟩ => ⟨S262144, .i32⟩
  | .hbm, ⟨16, _⟩ => ⟨S262144, .i1⟩
  | .hbm, ⟨17, _⟩ => ⟨S_, .i32⟩
  | .hbm, ⟨18, _⟩ => ⟨S_, .i1⟩
  | .hbm, ⟨19, _⟩ => ⟨S262144, .i1⟩
  | .hbm, ⟨20, _⟩ => ⟨S262144, .i1⟩
  | .hbm, ⟨21, _⟩ => ⟨S262144, .i1⟩
  | .hbm, ⟨22, _⟩ => ⟨S262144, .i32⟩
  | .hbm, ⟨23, _⟩ => ⟨S262144, .i32⟩
  | .hbm, ⟨24, _⟩ => ⟨S262144, .i32⟩
  | .hbm, ⟨25, _⟩ => ⟨S_, .i32⟩
  | .hbm, ⟨26, _⟩ => ⟨S262144, .i32⟩
  | .hbm, ⟨27, _⟩ => ⟨S262144, .i1⟩
  | .hbm, ⟨28, _⟩ => ⟨S_, .i32⟩
  | .hbm, ⟨29, _⟩ => ⟨S262144, .i32⟩
  | .hbm, ⟨30, _⟩ => ⟨S262144, .i32⟩
  | .hbm, ⟨31, _⟩ => ⟨S262144, .i32⟩
  | .hbm, ⟨32, _⟩ => ⟨S262144x1, .i32⟩
  | .hbm, ⟨33, _⟩ => ⟨S262144x256, .f32⟩
  | _, _ => ⟨S262144, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_c_1 : Ref sig .tc := ⟨.hbm, 11, rfl⟩
abbrev main_call0_v5 : Ref sig .tc := ⟨.hbm, 12, rfl⟩
abbrev main_call0_v6 : Ref sig .tc := ⟨.hbm, 13, rfl⟩
abbrev main_call0_c_2 : Ref sig .tc := ⟨.hbm, 14, rfl⟩
abbrev main_call0_v7 : Ref sig .tc := ⟨.hbm, 15, rfl⟩
abbrev main_call0_v8 : Ref sig .tc := ⟨.hbm, 16, rfl⟩
abbrev main_call0_c_3 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_c_1 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  gather_S8x256_S262144x1_S262144x256_1_0_n_n_0_1_1256_wf : GatherDims.WF S8x256 S262144x1 S262144x256 [1] [0] [] [0] [] 1 ![1, 256]

variable [Facts₀]

def gather_S8x256_S262144x1_S262144x256_1_0_n_n_0_1_1256 : GatherDims S8x256 S262144x1 S262144x256 where
  offsetDims := [1]
  collapsedSliceDims := [0]
  operandBatchingDims := []
  startIndicesBatchingDims := []
  startIndexMap := [0]
  indexVectorDim := 1
  sliceSizes := ![1, 256]
  wf := gather_S8x256_S262144x1_S262144x256_1_0_n_n_0_1_1256_wf

class Facts : Prop extends Facts₀ where

variable [Facts]
-- ==== Proof.TileSpec.lean ====
/-
  The function both programs compute. The table `E` has 8 rows of 256 lanes; the result has 262144 rows of 256
  lanes, and row `r` of the result is row `r mod 8` of the table: the table repeated 32768 times down the rows.
  Nothing is computed on the entries: each entry of the result is one entry of the table, whatever it holds
  (a real number or an infinity), so the statement is about indices only and holds over any type of entries.
  The same function at 2048 rows is the chunk the kernel builds once, and at 16384 rows the block one grid point
  writes: a stretch of rows that starts at a multiple of 8 repeats the table in phase with the whole array.
-/
import Idealize.ShloMosaic.Lib.ValueIdx

namespace Cert.Tile

open Idealize.ShloMosaic Idealize.ShloMosaic.ValueIdx

/-- The table repeated down `n` rows: entry `(r, l)` of the result is entry `(r mod 8, l)` of the table. -/
def tiled {α : Type} (n : Nat) (E : (⟨2, ![8, 256]⟩ : Shape).Idx → α) : (⟨2, ![n, 256]⟩ : Shape).Idx → α :=
  fun y => E (ix2 (⟨(y 0).val % 8, Nat.mod_lt _ (by decide)⟩ : Fin 8) (⟨(y 1).val, idx2_lt1 y⟩ : Fin 256))

theorem tiled_apply {α : Type} (n : Nat) (E : (⟨2, ![8, 256]⟩ : Shape).Idx → α) (r : Fin n) (l : Fin 256) :
    tiled n E (ix2 r l) = E (ix2 (⟨r.val % 8, Nat.mod_lt _ (by decide)⟩ : Fin 8) l) := rfl

/-- Two entries in the same lane whose rows agree modulo 8 are the same entry of the table. -/
theorem tiled_congr {α : Type} {n n' : Nat} (E : (⟨2, ![8, 256]⟩ : Shape).Idx → α)
    (y : (⟨2, ![n, 256]⟩ : Shape).Idx) (y' : (⟨2, ![n', 256]⟩ : Shape).Idx)
    (h0 : (y 0).val % 8 = (y' 0).val % 8) (h1 : (y 1).val = (y' 1).val) : tiled n E y = tiled n' E y' := by
  unfold tiled
  refine congrArg E (funext fun a => Fin.ext ?_)
  match a with
  | ⟨0, _⟩ => exact h0
  | ⟨1, _⟩ => exact h1

end Cert.Tile
-- ==== Proof.TileValue.lean ====
/-
  What the kernel's result array holds. One grid point's body loads the whole 8 × 256 table, gives it a leading
  unit axis, repeats it 256 times along that axis and lays the 256 × 8 rows out one after the other: a chunk of 2048
  rows whose row `p` is row `p mod 8` of the table (`chunk_eq`). It stores the chunk eight times, at rows 0, 2048, …,
  14336 of its 16384-row output block; the eight rectangles tile the block and every offset is a multiple of 8, so
  the block is the table repeated down 16384 rows, the same at every grid point (`block_eq`). Point `t` of the 16
  writes its block back at rows `16384 t …`, again a multiple of 8, so what it writes is block `t` of the table
  repeated down all 262144 rows (`flushed_eq`); row `r` lies in block `r / 16384`, so the blocks cover the array
  (`cover`), and the array ends as that one function of the table (`final`, `run`). The entries are only moved,
  never computed on: everything here holds for any kind of entries.
-/
import proofs.«118130_j61856118997302_2_alg».proof.Proof.Gen.KernelIdeal.Value
import proofs.«118130_j61856118997302_2_alg».proof.Proof.TileSpec
import Idealize.ShloMosaic.Lib.Pipeline.Value
import Idealize.ShloMosaic.Lib.ValueIdx
import Idealize.ShloMosaic.Lib.ValueLayout
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.TileValue

open Cert.KernelIdeal Cert.KernelIdeal.Gen Cert.KernelIdeal.Value

variable {F : FTy → Type} [FloatOps F]
variable (m : (ℓ : Loc nD τ sig) → Buf (Elt F) ℓ) (ρ : Dev nD → PrngReg)

/-- The chunk the body builds from the table `x0`: the table given a leading unit axis, repeated 256 times along
    it, and the 256 × 8 rows laid out one after the other. Row `p = 8a + b` of the chunk is copy `a`'s row `b`,
    that is, row `p mod 8` of the table. -/
theorem chunk_apply (x0 : Vec F S8x256 .f32) (p : Fin 2048) (q : Fin 256) :
    k0_pay1 x0 (ix2 p q) = x0 (ix2 (⟨p.val % 8, Nat.mod_lt _ (by decide)⟩ : Fin 8) q) := by
  unfold k0_pay1
  refine (shapeCast_apply _ _ (ix2 p q)
    (ix3 (⟨p.val / 8, by have := p.isLt; omega⟩ : Fin 256) (⟨p.val % 8, Nat.mod_lt _ (by decide)⟩ : Fin 8) q) ?_).trans ?_
  · rw [Shape.rowMajor_val_three, Shape.rowMajor_val_two]
    show (p.val / 8 * 8 + p.val % 8) * 256 + q.val = p.val * 256 + q.val
    have := Nat.div_add_mod p.val 8
    omega
  refine (broadcastTo_apply _ _ _ (ix3 (0 : Fin 1) (⟨p.val % 8, Nat.mod_lt _ (by decide)⟩ : Fin 8) q)
    (fun a => match a with | ⟨0, _⟩ => rfl | ⟨1, _⟩ => rfl | ⟨2, _⟩ => rfl)).trans ?_
  rw [shapeCast_self]
  exact shapeCast_ab_1ab_apply _ _ _ _ _

/-- So the chunk is the table repeated down 2048 rows. -/
theorem chunk_eq (x0 : Vec F S8x256 .f32) : k0_pay1 x0 = Cert.Tile.tiled 2048 x0 := by
  funext j
  obtain ⟨p, q, rfl⟩ : ∃ (p : Fin 2048) (q : Fin 256), j = ix2 p q := ⟨j 0, j 1, eq_ix2 j⟩
  exact chunk_apply x0 p q

theorem hz : (![0, 0] : Fin 2 → Nat) = fun _ => 0 := funext fun a => by fin_cases a <;> rfl

/-- The chunk placed at a row offset divisible by 8 is in phase with the block: row `off + r` of the block and
    row `r` of the chunk are the same row of the table. -/
theorem chunk_in_block (x0 : Vec F S8x256 .f32) (off : Nat) (hoff : off % 8 = 0)
    (h : ∀ a, (![off, 0] : Fin 2 → Nat) a + S2048x256.size a ≤ S16384x256.size a) (x : S2048x256.Idx) :
    Cert.Tile.tiled 2048 x0 x
      = Cert.Tile.tiled 16384 x0 ((Rect.unit (s := S16384x256) ![off, 0] S2048x256.size h).emb x) := by
  refine Cert.Tile.tiled_congr x0 _ _ ?_ ?_
  · show (x 0).val % 8 = (off + 1 * (x 0).val) % 8
    omega
  · show (x 1).val = 0 + 1 * (x 1).val
    omega

/-- What the body leaves in the output's staging buffer: its eight stores put the chunk at rows 0, 2048, …, 14336,
    which tile the 16384 rows, and each offset is a multiple of 8, so the buffer holds the table repeated down
    16384 rows — whatever grid point the body runs at. -/
theorem block_eq (c : Dev nD) (i : grid0.Coords) (a1 : Memref sig .tc .vmem S8x256 .f32) (h1 : a1.IsWhole)
    (a2 : Memref sig .tc .vmem S16384x256 .f32) (h2 : a2.IsWhole) (x0 : Vec F S8x256 .f32) :
    out0_A_1 c i a1 h1 a2 h2 x0 = Cert.Tile.tiled 16384 x0 := by
  unfold out0_A_1
  rw [View.read_writes_eq_canon _ _ _ (cover0_A_1 c i a1 h1 a2 h2 x0)]
  funext y
  refine View.canon_apply_of_pieces (Cert.Tile.tiled 16384 x0) _ ?_ y (cover0_A_1 c i a1 h1 a2 h2 x0 y)
  unfold kernelRun0_A
  dsimp only
  sl_unfold_words
  simp only [View.readAt_eq_ld, h1.read_unread, View.ld_unit_zero (S := S8x256) hz]
  intro p hp x
  simp only [List.mem_cons, List.not_mem_nil, or_false] at hp
  rcases hp with rfl | rfl | rfl | rfl | rfl | rfl | rfl | rfl
  · exact (congrFun (chunk_eq x0) x).trans (chunk_in_block x0 14336 (by decide) (by decide) x)
  · exact (congrFun (chunk_eq x0) x).trans (chunk_in_block x0 12288 (by decide) (by decide) x)
  · exact (congrFun (chunk_eq x0) x).trans (chunk_in_block x0 10240 (by decide) (by decide) x)
  · exact (congrFun (chunk_eq x0) x).trans (chunk_in_block x0 8192 (by decide) (by decide) x)
  · exact (congrFun (chunk_eq x0) x).trans (chunk_in_block x0 6144 (by decide) (by decide) x)
  · exact (congrFun (chunk_eq x0) x).trans (chunk_in_block x0 4096 (by decide) (by decide) x)
  · exact (congrFun (chunk_eq x0) x).trans (chunk_in_block x0 2048 (by decide) (by decide) x)
  · exact (congrFun (chunk_eq x0) x).trans (chunk_in_block x0 0 (by decide) (by decide) x)

/-! ## From the block to the array -/

/-- The printed index maps over the sixteen grid points: the table's block is always block (0, 0), and point `t`
    writes block `(t, 0)` of the result. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0 :=
  (by decide +kernel : ∀ t : Fin grid0.N, _)

/-- The table's one block is the whole table: at every grid point the body's input is the table as launched. -/
theorem table_block (c : Dev nD) (t : Fin cfg0.N) :
    (iblk m c 0 t : Vec F S8x256 .f32) = m ((c : Thread nD τ).loc main_arg1) := by
  obtain ⟨e0, e1, -, -⟩ := idx_facts t
  funext j
  unfold iblk
  rw [View.read_apply]
  show V m c main_arg1 _ = m (c.tc.loc main_arg1) _
  unfold V
  congr 1
  funext a
  apply Fin.ext
  match a with
  | ⟨0, _⟩ => show win0_0.index t 0 * 8 + 1 * (j 0).val = (j 0).val; rw [e0]; omega
  | ⟨1, _⟩ => show win0_0.index t 1 * 256 + 1 * (j 1).val = (j 1).val; rw [e1]; omega

/-- WHAT POINT `t` WRITES BACK is block `t` of the table repeated down all 262144 rows: the block starts at row
    `16384 t`, a multiple of 8, so its rows repeat the table in phase with the whole array. -/
theorem flushed_eq (c : Dev nD) (t : Fin cfg0.N) :
    (dats m 0 c).flushed 1 t
      = ((cfg0.win 1).blk t).view.read (Elt F) (Cert.Tile.tiled 262144 (m ((c : Thread nD τ).loc main_arg1))) := by
  rw [flushed1_A, block_eq, table_block]
  obtain ⟨-, -, e2, e3⟩ := idx_facts t
  funext j
  show Cert.Tile.tiled 16384 (m ((c : Thread nD τ).loc main_arg1)) (win0_1.xinj (grid0.coords t) j)
    = Cert.Tile.tiled 262144 (m ((c : Thread nD τ).loc main_arg1)) (((cfg0.win 1).blk t).view.emb j)
  refine Cert.Tile.tiled_congr _ _ _ ?_ ?_
  · show (j 0).val % 8 = (win0_1.index t 0 * 16384 + 1 * (j 0).val) % 8
    rw [e2]; omega
  · show (j 1).val = win0_1.index t 1 * 256 + 1 * (j 1).val
    rw [e3]; omega

/-- An index of the array is in point `t`'s block iff each coordinate is in the block's range on its axis. -/
theorem mem_blk (t : Fin cfg0.N) (i : S262144x256.Idx) :
    i ∈ ((cfg0.win 1).blk t).view.set ↔ ∀ a : Fin 2, win0_1.index t a * S16384x256.size a ≤ (i a).val
      ∧ (i a).val < win0_1.index t a * S16384x256.size a + S16384x256.size a := by
  show i ∈ ((View.whole main_v0).slice (win0_1.rect t)).set ↔ _
  rw [View.set_slice_whole, Rect.mem_set_unit]
  exact Iff.rfl

/-- Every row is in some point's block: row `r` is in block `r / 16384`, and every point writes its block back. -/
theorem cover (i : S262144x256.Idx) :
    ∃ t : Fin cfg0.N, (cfg0.win 1).flush t = true ∧ i ∈ ((cfg0.win 1).blk t).view.set := by
  have hN : cfg0.N = 16 := N_0
  have h0 : (i 0).val < 262144 := (i 0).isLt
  have h1 : (i 1).val < 256 := (i 1).isLt
  obtain ⟨-, -, e2, e3⟩ := idx_facts ⟨(i 0).val / 16384, by rw [hN]; omega⟩
  refine ⟨⟨(i 0).val / 16384, by rw [hN]; omega⟩, flush0_1 _, ?_⟩
  rw [mem_blk]
  intro a
  match a with
  | ⟨0, _⟩ =>
    show win0_1.index ⟨(i 0).val / 16384, _⟩ 0 * 16384 ≤ (i 0).val
      ∧ (i 0).val < win0_1.index ⟨(i 0).val / 16384, _⟩ 0 * 16384 + 16384
    rw [e2]
    show (i 0).val / 16384 * 16384 ≤ (i 0).val ∧ (i 0).val < (i 0).val / 16384 * 16384 + 16384
    omega
  | ⟨1, _⟩ =>
    show win0_1.index ⟨(i 0).val / 16384, _⟩ 1 * 256 ≤ (i 1).val
      ∧ (i 1).val < win0_1.index ⟨(i 0).val / 16384, _⟩ 1 * 256 + 256
    rw [e3]
    omega

/-- THE ARRAY after the run: the table repeated down the rows. -/
theorem final (c : Dev nD) :
    (dats m 0 c).arrAt 1 cfg0.N = Cert.Tile.tiled 262144 (m ((c : Thread nD τ).loc main_arg1)) :=
  (dats m 0 c).arrAt_eq_of_cover 1 (Cert.Tile.tiled 262144 (m ((c : Thread nD τ).loc main_arg1)))
    (fun t _ => flushed_eq m c t) cover

/-- The kernel's run, read: every weakly fair execution terminates with the result at the table repeated down the
    rows and both arguments as launched. -/
theorem run : θ_run defs (onTc (τ := τ) (main (F := F))) ⟨m, fun _ => 0, ρ⟩ fun r => ∀ c : Dev nD,
      r.2.mem ((c : Thread nD τ).loc main_v0) = Cert.Tile.tiled 262144 (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.TileValue

end
-- ==== Proof.RefRun.lean ====
/-
  The reference as a straight line. Its @main builds the row numbers 0 … 262143, reduces each modulo 8 the way
  jnp's `%` does (the remainder of the dividend's sign, then the divisor added back when the remainder is not zero
  and its sign differs from the divisor's), wraps a negative index by the table's height, and gathers the table's
  rows at those indices. The remainder and the select inside it are functions of the module, printed once and
  called; here their lines are written where they are called, over the call's buffers, so that @main is one list of
  thirty-three operations and its run is the fold of that list over the launch memory.
-/
import proofs.«118130_j61856118997302_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order: the row numbers and the divisor 8; the remainder's twenty-one lines (the divisor
    guarded against zero by a select, the signed remainder, the sign correction); then the wrap of a negative index
    (compare with 0, add 8, select), the index column, and the gather. -/
abbrev ops : List (HloOp τ sig (Elt F)) :=
  [ nullary main_v0 (iotaInDim S262144 32 0),
    nullary main_c (constantI S_ 32 8#32),
    TRef.unary (.of main_c) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S262144 ![] bcast_S_S262144),
    TRef.binary (.of main_v0) main_call0.v3 main_call0.v4 Host.remsi,
    TRef.nullary main_call0.c_1 (constantI S_ 32 0#32),
    TRef.unary main_call0.c_1 main_call0.v5 (broadcastInDim S262144 ![] bcast_S_S262144),
    TRef.binary main_call0.v4 main_call0.v5 main_call0.v6 (cmpi .ne),
    TRef.nullary main_call0.c_2 (constantI S_ 32 0#32),
    TRef.unary main_call0.c_2 main_call0.v7 (broadcastInDim S262144 ![] bcast_S_S262144),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S262144 ![] bcast_S_S262144),
    TRef.binary main_call0.v8 main_call0.v10 main_call0.v11 (cmpi .ne),
    TRef.binary main_call0.v11 main_call0.v6 main_call0.v12 andi,
    TRef.unary main_call0.call0.v0 main_call0.v13 (broadcastInDim S262144 ![] bcast_S_S262144),
    TRef.binary main_call0.v4 main_call0.v13 main_call0.v14 addi,
    TRef.ternary main_call0.v12 main_call0.v14 main_call0.v4 main_call0.v15 select,
    nullary main_c_0 (constantI S_ 32 0#32),
    unary main_c_0 main_v2 (broadcastInDim S262144 ![] bcast_S_S262144),
    binary main_v1 main_v2 main_v3 (cmpi .slt),
    nullary main_c_1 (constantI S_ 32 8#32),
    unary main_c_1 main_v4 (broadcastInDim S262144 ![] bcast_S_S262144),
    binary main_v1 main_v4 main_v5 addi,
    ternary main_v3 main_v5 main_v1 main_v6 select,
    unary main_v6 main_v7 (broadcastInDim S262144x1 ![0] bcast_S262144_S262144x1_0),
    binary main_arg1 main_v7 main_v8 (fun x i => Host.gather gather_S8x256_S262144x1_S262144x256_1_0_n_n_0_1_1256 x i) ]

set_option maxRecDepth 1024 in
/-- @main is that list run in order: the two functions' bodies opened at their calls, the sequencing reassociated. -/
theorem main_eq (c : Dev nD) : main (F := F) c = seq ops := by
  simp only [main, fn_remainder.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., nullary_bufs_sub .., binary_bufs_sub .., nullary_bufs_sub ..,
    ternary_bufs_sub .., unary_bufs_sub .., binary_bufs_sub .., nullary_bufs_sub .., unary_bufs_sub .., binary_bufs_sub ..,
    nullary_bufs_sub .., unary_bufs_sub .., binary_bufs_sub .., nullary_bufs_sub .., binary_bufs_sub .., unary_bufs_sub ..,
    binary_bufs_sub .., binary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., binary_bufs_sub ..⟩

/-- Every weakly fair execution of @main terminates, and every final state has each buffer at the fold of the
    thirty-three operations over the launch memory. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.RefRun

end
-- ==== Proof.RowWord.lean ====
/-
  The reference's row index on one 32-bit word. For a row number `n` it takes the signed remainder `r` of `n` by
  8, adds 8 back when `r` is not zero and its sign differs from the divisor's, and then, as an index into the
  table, adds the table's height 8 once more if the result is negative. Row numbers are below 2^18, so as signed
  words they are non-negative: the signed remainder is the ordinary one, `r = n mod 8` lies in 0 … 7, neither
  correction fires, and the word stays `n mod 8`. Read back as a signed integer and clamped into 0 … 7 (as a
  gather clamps its start indices) it is still `n mod 8`.
-/
import Idealize.ShloMosaic.PureOps

namespace Cert.Tile

open Idealize.ShloMosaic

/-- The reference's chain of integer operations on one row number: the divisor (8, replaced by 1 if it were 0), the
    signed remainder, the sign correction, the wrap of a negative index. -/
def rowWord (n : BitVec 32) : BitVec 32 :=
  let d : BitVec 32 := Scalar.select (IntOp.cmpi .eq 8#32 0#32) 1#32 8#32
  let r := IntOp.remsi .host n d
  let s := Scalar.select (IntOp.andi (IntOp.cmpi .ne (IntOp.cmpi .slt r 0#32) (IntOp.cmpi .slt d 0#32)) (IntOp.cmpi .ne r 0#32)) (IntOp.addi r d) r
  Scalar.select (IntOp.cmpi .slt s 0#32) (IntOp.addi s 8#32) s

/-- A row number below 2^18 is a non-negative signed word, and so is 8: their signed remainder is the unsigned
    one, the word of `i mod 8`. -/
theorem srem_eight (i : Nat) (hi : i < 262144) : (BitVec.ofNat 32 i).srem 8#32 = BitVec.ofNat 32 (i % 8) := by
  have hm : (BitVec.ofNat 32 i).msb = false := by
    rw [BitVec.msb_eq_false_iff_two_mul_lt, BitVec.toNat_ofNat]; omega
  have h8 : (8#32 : BitVec 32).msb = false := by decide
  rw [BitVec.srem_eq, hm, h8]
  apply BitVec.eq_of_toNat_eq
  rw [BitVec.toNat_umod, BitVec.toNat_ofNat, BitVec.toNat_ofNat]
  show i % 4294967296 % 8 = i % 8 % 4294967296
  omega

/-- On a remainder `k` in 0 … 7 neither correction fires (checked on the eight words). -/
theorem corrections_idle : ∀ k : Fin 8,
    (let r : BitVec 32 := BitVec.ofNat 32 k.val
     let s := Scalar.select (IntOp.andi (IntOp.cmpi .ne (IntOp.cmpi .slt r 0#32) (IntOp.cmpi .slt 8#32 0#32)) (IntOp.cmpi .ne r 0#32)) (IntOp.addi r 8#32) r
     Scalar.select (IntOp.cmpi .slt s 0#32) (IntOp.addi s 8#32) s) = BitVec.ofNat 32 k.val := by decide

/-- The word of `k` in 0 … 7, read signed and clamped into 0 … 7, is `k` (checked on the eight words). -/
theorem clamp_idle : ∀ k : Fin 8, min (BitVec.ofNat 32 k.val).toInt.toNat (8 - 1) = k.val := by decide

/-- THE ROW INDEX: on row number `i < 2^18` the chain leaves the word of `i mod 8`. -/
theorem rowWord_ofNat (i : Nat) (hi : i < 262144) : rowWord (BitVec.ofNat 32 i) = BitVec.ofNat 32 (i % 8) := by
  have hd : (Scalar.select (IntOp.cmpi .eq 8#32 0#32) 1#32 8#32 : BitVec 32) = 8#32 := by decide
  have hc : ¬ IntOp.SDivCorner (BitVec.ofNat 32 i) (8#32 : BitVec 32) := by
    rintro (h | ⟨_, h⟩) <;> exact absurd h (by decide)
  unfold rowWord
  simp only [hd]
  rw [show IntOp.remsi .host (BitVec.ofNat 32 i) 8#32 = BitVec.ofNat 32 (i % 8) from by
    unfold IntOp.remsi; rw [if_neg hc]; exact srem_eight i hi]
  exact corrections_idle ⟨i % 8, Nat.mod_lt _ (by decide)⟩

/-- … and the gather's clamped start index on that word is `i mod 8`. -/
theorem rowWord_start (i : Nat) (hi : i < 262144) : min (rowWord (BitVec.ofNat 32 i)).toInt.toNat (8 - 1) = i % 8 := by
  rw [rowWord_ofNat i hi]
  exact clamp_idle ⟨i % 8, Nat.mod_lt _ (by decide)⟩

end Cert.Tile
-- ==== Proof.RefValue.lean ====
/-
  What the reference's result holds. The fold of its thirty-three operations leaves, in the result buffer, the gather
  of the table at the column of row indices; the row index of row `i` is the integer chain of RowWord on the word of
  `i`, which is `i mod 8`; and this gather (one index per result row, the table's row axis collapsed, its lane axis
  kept whole) reads, at `(i, l)`, the table at (the clamped index of row `i`, `l`). So the result is the table
  repeated down the rows, entry by entry, for any entries.
-/
import proofs.«118130_j61856118997302_2_alg».proof.Proof.RefRun
import proofs.«118130_j61856118997302_2_alg».proof.Proof.RowWord
import proofs.«118130_j61856118997302_2_alg».proof.Proof.TileSpec
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.RefRun
open Idealize.ShloMosaic Idealize.ShloMosaic.TcCoe Idealize.SL.Sem Idealize.ShloMosaic.StableHlo Idealize.ShloMosaic.ValueIdx

variable {F : FTy → Type} [FloatOps F]

/-- The divisor as @main computes it: 8, or 1 if it were 0. -/
def divisor : IVec S_ 32 :=
  select (cmpi .eq (id (constantI S_ 32 8#32)) (constantI S_ 32 0#32)) (constantI S_ 32 1#32) (id (constantI S_ 32 8#32))

/-- jnp's remainder of the row numbers by the divisor: the signed remainder, the divisor added back where the
    remainder is not zero and its sign differs from the divisor's. -/
def remainders : IVec S262144 32 :=
  let r : IVec S262144 32 := Host.remsi (iotaInDim S262144 32 0) (broadcastInDim S262144 ![] bcast_S_S262144 divisor)
  select
    (andi (cmpi .ne (cmpi .slt r (broadcastInDim S262144 ![] bcast_S_S262144 (constantI S_ 32 0#32)))
        (broadcastInDim S262144 ![] bcast_S_S262144 (cmpi .slt divisor (constantI S_ 32 0#32))))
      (cmpi .ne r (broadcastInDim S262144 ![] bcast_S_S262144 (constantI S_ 32 0#32))))
    (addi r (broadcastInDim S262144 ![] bcast_S_S262144 divisor)) r

/-- The row indices: a negative remainder wrapped by the table's height. -/
def rows : IVec S262144 32 :=
  select (cmpi .slt remainders (broadcastInDim S262144 ![] bcast_S_S262144 (constantI S_ 32 0#32)))
    (addi remainders (broadcastInDim S262144 ![] bcast_S_S262144 (constantI S_ 32 8#32))) remainders

/-- Entry `i` of the row indices is the one-word chain on the word of `i`: every operation acts entry by entry, and a
    broadcast scalar is the same word at every entry. -/
theorem rows_apply (i : S262144.Idx) : rows i = Cert.Tile.rowWord (BitVec.ofNat 32 (i 0).val) := rfl

attribute [local irreducible] Host.gather Host.remsi in
set_option maxRecDepth 8192 in
/-- The fold at the result buffer: the gather of the table at the column of row indices. -/
theorem out_eq (V : Valuation τ sig (Elt F)) :
    after ops V (Proc.devRef .tc main_v8)
      = Host.gather gather_S8x256_S262144x1_S262144x256_1_0_n_n_0_1_1256 (V (Proc.devRef .tc main_arg1))
          (broadcastInDim S262144x1 ![0] bcast_S262144_S262144x1_0 rows) := by
  after_results_simp
  rfl

theorem arg0_eq (V : Valuation τ sig (Elt F)) : after ops V (Proc.devRef .tc main_arg0) = V (Proc.devRef .tc main_arg0) := by
  simp only [after_cons, after_nil]
  rfl

theorem arg1_eq (V : Valuation τ sig (Elt F)) : after ops V (Proc.devRef .tc main_arg1) = V (Proc.devRef .tc main_arg1) := by
  simp only [after_cons, after_nil]
  rfl

/-- THE GATHER READ AT `(i, l)`: the table at (the start index of row `i`, read signed and clamped into 0 … 7; `l`).
    On the table's row axis the start index map names the axis and the slice is one row, so the coordinate is the
    clamped start; on the lane axis the slice is the whole axis from 0, so the coordinate is the result's. -/
theorem gather_apply {α : Type} (E : S8x256.Idx → α) (idx : IVec S262144x1 32) (y : S262144x256.Idx) :
    Host.gather gather_S8x256_S262144x1_S262144x256_1_0_n_n_0_1_1256 E idx y
      = E (ix2 (⟨min (idx (ix2 (⟨(y 0).val, idx2_lt0 y⟩ : Fin 262144) (0 : Fin 1))).toInt.toNat (8 - 1), by omega⟩ : Fin 8)
          (⟨(y 1).val, idx2_lt1 y⟩ : Fin 256)) := by
  unfold Host.gather
  refine congrArg E (funext fun a => Fin.ext ?_)
  match a with
  | ⟨0, _⟩ =>
    show gather_S8x256_S262144x1_S262144x256_1_0_n_n_0_1_1256.start y idx 0 + gather_S8x256_S262144x1_S262144x256_1_0_n_n_0_1_1256.batchCoord y 0 + gather_S8x256_S262144x1_S262144x256_1_0_n_n_0_1_1256.offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin S8x256.rank) ∈ gather_S8x256_S262144x1_S262144x256_1_0_n_n_0_1_1256.startIndexMap from List.mem_singleton.mpr rfl)]
    have hsi : gather_S8x256_S262144x1_S262144x256_1_0_n_n_0_1_1256.siIdx y ⟨List.idxOf (0 : Fin S8x256.rank) gather_S8x256_S262144x1_S262144x256_1_0_n_n_0_1_1256.startIndexMap,
        List.idxOf_lt_length_iff.2 (List.mem_singleton.mpr rfl)⟩ = ix2 (⟨(y 0).val, idx2_lt0 y⟩ : Fin 262144) (0 : Fin 1) := by
      funext b; refine Fin.ext ?_
      match b with
      | ⟨0, _⟩ => rfl
      | ⟨1, _⟩ => rfl
    rw [hsi]
    rfl
  | ⟨1, _⟩ =>
    show gather_S8x256_S262144x1_S262144x256_1_0_n_n_0_1_1256.start y idx 1 + gather_S8x256_S262144x1_S262144x256_1_0_n_n_0_1_1256.batchCoord y 1 + gather_S8x256_S262144x1_S262144x256_1_0_n_n_0_1_1256.offCoord y 1 = (y 1).val
    have hs : gather_S8x256_S262144x1_S262144x256_1_0_n_n_0_1_1256.start y idx 1 = 0 := by
      unfold GatherDims.start
      rw [dif_neg (by decide)]
    have ho : gather_S8x256_S262144x1_S262144x256_1_0_n_n_0_1_1256.offCoord y 1 = (y 1).val := by
      unfold GatherDims.offCoord
      rw [dif_pos (by decide)]
      rfl
    rw [GatherDims.batchCoord_eq_zero _ _ _ List.not_mem_nil, hs, ho]
    omega

/-- So the gather at the column of row indices is the table repeated down the rows. -/
theorem gather_rows {α : Type} (E : S8x256.Idx → α) :
    Host.gather gather_S8x256_S262144x1_S262144x256_1_0_n_n_0_1_1256 E (broadcastInDim S262144x1 ![0] bcast_S262144_S262144x1_0 rows) = Cert.Tile.tiled 262144 E := by
  funext y
  rw [gather_apply]
  unfold Cert.Tile.tiled
  have hrow : broadcastInDim S262144x1 ![0] bcast_S262144_S262144x1_0 rows (ix2 (⟨(y 0).val, idx2_lt0 y⟩ : Fin 262144) (0 : Fin 1))
      = Cert.Tile.rowWord (BitVec.ofNat 32 (y 0).val) :=
    (broadcastInDim_apply _ _ rows _ (ix1 (⟨(y 0).val, idx2_lt0 y⟩ : Fin 262144)) (fun a => match a with | ⟨0, _⟩ => rfl)).trans
      (rows_apply _)
  refine congrArg E (funext fun a => Fin.ext ?_)
  match a with
  | ⟨0, _⟩ =>
    show min (broadcastInDim S262144x1 ![0] bcast_S262144_S262144x1_0 rows (ix2 (⟨(y 0).val, idx2_lt0 y⟩ : Fin 262144) (0 : Fin 1))).toInt.toNat (8 - 1) = (y 0).val % 8
    rw [hrow]
    exact Cert.Tile.rowWord_start _ (idx2_lt0 y)
  | ⟨1, _⟩ => rfl

/-- The reference's run, read: every weakly fair execution terminates with the result at the table repeated down the
    rows and both arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v8) = Cert.Tile.tiled 262144 (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v8).trans ((out_eq _).trans (gather_rows _)),
      (h c main_arg0).trans (arg0_eq _), (h c main_arg1).trans (arg1_eq _)⟩)
    (run_fold m ρ)

end Cert.ReferenceIdeal.RefValue

end
-- ==== Proof.lean ====
/-
  The kernel and its jnp reference both build, from a table `E` of 8 rows by 256 lanes, the array of 262144 rows
  whose row `i` is row `i mod 8` of the table (the integer argument is never read by either). No arithmetic is done
  on the entries, so the two results are equal entry by entry over the extended reals, infinities included, and the
  finiteness of the inputs is never used.

  The kernel (TileValue): each of its 16 grid points loads the whole table, lays 256 copies of it one after the other
  into a chunk of 2048 rows, and stores that chunk eight times, at rows 0, 2048, …, 14336 of a block of 16384 rows;
  point `t` writes its block back at rows `16384 t …`. Every offset involved is a multiple of 8, so chunk, block and
  array all repeat the table in the same phase, and the sixteen blocks tile the array.

  The reference (RefRun, RowWord, RefValue): row numbers 0 … 262143, jnp's remainder by 8 and the wrap of a negative
  index on 32-bit words — on a row number below 2^18 these leave `i mod 8` —, then a gather of the table's rows at those
  indices.

  The three frames: the kernel's two are the generated frame certificates; the reference's is its run with the
  result dropped. The idealization rewrote nothing, so there is nothing to preserve.
-/
import proofs.«118130_j61856118997302_2_alg».proof.Defs
import proofs.«118130_j61856118997302_2_alg».proof.Proof.Gen.Kernel
import proofs.«118130_j61856118997302_2_alg».proof.Proof.Gen.Kernel.Frame
import proofs.«118130_j61856118997302_2_alg».proof.Proof.Gen.KernelIdeal
import proofs.«118130_j61856118997302_2_alg».proof.Proof.Gen.KernelIdeal.Frame
import proofs.«118130_j61856118997302_2_alg».proof.Proof.Gen.ReferenceIdeal
import proofs.«118130_j61856118997302_2_alg».proof.Proof.Gen.Pre_finite_inputs
import proofs.«118130_j61856118997302_2_alg».proof.Proof.TileValue
import proofs.«118130_j61856118997302_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference terminates without a fault and leaves its arguments alone: its run, the result forgotten. -/
theorem frame_referenceIdeal : Cert.frame_ReferenceIdeal := fun m ρ _ =>
  (θ_run Cert.ReferenceIdeal.defs _ _).mono (fun _ h c => (h c).2) (Cert.ReferenceIdeal.RefValue.run (F := Ideal) m ρ)

theorem preserves : Cert.preserves_Kernel_KernelIdeal := trivial

/-- Both runs end with the result at the table repeated down the rows, of tables that agree. -/
theorem algebraic : Cert.algebraic_KernelIdeal_ReferenceIdeal := by
  intro m ρ m' ρ' _ hagree
  refine ⟨_, Cert.KernelIdeal.TileValue.run (F := Ideal) m ρ, ?_⟩
  refine (θ_run Cert.ReferenceIdeal.defs _ _).mono (fun _ h c => ⟨(h c).1.trans ?_, (h c).2⟩)
    (Cert.ReferenceIdeal.RefValue.run (F := Ideal) m' ρ')
  rw [(hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
